-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S62x8192x128 : Shape := ⟨3, ![62, 8192, 128]⟩
abbrev S62x256x128 : Shape := ⟨3, ![62, 256, 128]⟩
abbrev S256 : Shape := ⟨1, ![256]⟩
abbrev S_ : Shape := ⟨0, ![]⟩

class Facts : Prop where
  bcast_S_S62x8192x128 : S_.BroadcastsInDim S62x8192x128 (![] : Fin 0 → Fin S62x8192x128.rank)
  reducesTo_S62x8192x128_S_d0_1_2 : S62x8192x128.ReducesTo [0, 1, 2] S_
  h_S_ : 0 < S_.numel
  bcast_S_S62x256x128 : S_.BroadcastsInDim S62x256x128 (![] : Fin 0 → Fin S62x256x128.rank)
  reducesTo_S62x256x128_S_d0_1_2 : S62x256x128.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S62x8192x128 .f32) (main_arg1 : FVec F S62x256x128 .f32) (main_arg2 : FVec F S256 .f32) (main_arg3 : FVec F S256 .f32) : IVec S_ 1 :=
  let main_v0 : FVec F S62x8192x128 .f32 := Host.absf main_arg0
  let main_cst : FVec F S_ .f32 := constant S_ .f32 0x7F800000#32
  let main_v1 : FVec F S62x8192x128 .f32 := broadcastInDim S62x8192x128 ![] bcast_S_S62x8192x128 main_cst
  let main_v2 : IVec S62x8192x128 1 := cmpf .olt main_v0 main_v1
  let main_c : IVec S_ 1 := constantI S_ 1 1#1
  let main_v3 : IVec S_ 1 := (fun x v => Host.reduce IntOp.andi x v reducesTo_S62x8192x128_S_d0_1_2 h_S_) main_v2 main_c
  let main_v4 : FVec F S62x256x128 .f32 := Host.absf main_arg1
  let main_cst_0 : FVec F S_ .f32 := constant S_ .f32 0x7F800000#32
  let main_v5 : FVec F S62x256x128 .f32 := broadcastInDim S62x256x128 ![] bcast_S_S62x256x128 main_cst_0
  let main_v6 : IVec S62x256x128 1 := cmpf .olt main_v4 main_v5
  let main_c_1 : IVec S_ 1 := constantI S_ 1 1#1
  let main_v7 : IVec S_ 1 := (fun x v => Host.reduce IntOp.andi x v reducesTo_S62x256x128_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S62x8192x128 : Shape := ⟨3, ![62, 8192, 128]⟩
abbrev S62x256x128 : Shape := ⟨3, ![62, 256, 128]⟩
abbrev S256 : Shape := ⟨1, ![256]⟩
abbrev S62x8192x256 : Shape := ⟨3, ![62, 8192, 256]⟩
abbrev S1x4096x128 : Shape := ⟨3, ![1, 4096, 128]⟩
abbrev S1x256x128 : Shape := ⟨3, ![1, 256, 128]⟩
abbrev S1x4096x256 : Shape := ⟨3, ![1, 4096, 256]⟩
abbrev S4096x128 : Shape := ⟨2, ![4096, 128]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S62x8192x128, .f32⟩
  | .hbm, ⟨1, _⟩ => ⟨S62x256x128, .f32⟩
  | .hbm, ⟨2, _⟩ => ⟨S256, .f32⟩
  | .hbm, ⟨3, _⟩ => ⟨S256, .f32⟩
  | .hbm, ⟨4, _⟩ => ⟨S62x8192x256, .f32⟩
  | .local _ .vmem, ⟨0, _⟩ => ⟨S1x4096x128, .f32⟩
  | .local _ .vmem, ⟨1, _⟩ => ⟨S1x4096x128, .f32⟩
  | .local _ .vmem, ⟨2, _⟩ => ⟨S1x256x128, .f32⟩
  | .local _ .vmem, ⟨3, _⟩ => ⟨S1x256x128, .f32⟩
  | .local _ .vmem, ⟨4, _⟩ => ⟨S256, .f32⟩
  | .local _ .vmem, ⟨5, _⟩ => ⟨S256, .f32⟩
  | .local _ .vmem, ⟨6, _⟩ => ⟨S1x4096x256, .f32⟩
  | .local _ .vmem, ⟨7, _⟩ => ⟨S1x4096x256, .f32⟩
  | _, _ => ⟨S62x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![62, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  reduces_S4096x256_S4096 : S4096x256.Reduces [1] S4096
  shapeCasts_S4096_S4096x1 : S4096.ShapeCasts S4096x1
  broadcasts_S4096x1_S4096x256 : S4096x1.Broadcasts S4096x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S62x8192x128.size a
  hwx0_0 : ∀ i : grid0.Coords, EltTy.bits .f32 = 32 ∨ (Rect.block (s := S62x8192x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S62x256x128.size a
  hwx0_1 : ∀ i : grid0.Coords, EltTy.bits .f32 = 32 ∨ (Rect.block (s := S62x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S62x8192x256.size a
  hwx0_4 : ∀ i : grid0.Coords, EltTy.bits .f32 = 32 ∨ (Rect.block (s := S62x8192x256) S1x4096x256.size (cc0_transform_4 i) (hinb0_4 i)).WholeWords (EltTy.packing .f32)

variable [Facts₀]

def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S62x8192x128 : Shape := ⟨3, ![62, 8192, 128]⟩
abbrev S62x256x128 : Shape := ⟨3, ![62, 256, 128]⟩
abbrev S256 : Shape := ⟨1, ![256]⟩
abbrev S62x8192x256 : Shape := ⟨3, ![62, 8192, 256]⟩
abbrev S_ : Shape := ⟨0, ![]⟩
abbrev S62x8192 : Shape := ⟨2, ![62, 8192]⟩
abbrev S62x8192x1 : Shape := ⟨3, ![62, 8192, 1]⟩
abbrev S1x1x256 : Shape := ⟨3, ![1, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S62x8192x128, .f32⟩
  | .hbm, ⟨1, _⟩ => ⟨S62x256x128, .f32⟩
  | .hbm, ⟨2, _⟩ => ⟨S256, .f32⟩
  | .hbm, ⟨3, _⟩ => ⟨S256, .f32⟩
  | .hbm, ⟨4, _⟩ => ⟨S62x8192x256, .f32⟩
  | .hbm, ⟨5, _⟩ => ⟨S_, .f32⟩
  | .hbm, ⟨6, _⟩ => ⟨S62x8192, .f32⟩
  | .hbm, ⟨7, _⟩ => ⟨S62x8192x1, .f32⟩
  | .hbm, ⟨8, _⟩ => ⟨S_, .f32⟩
  | .hbm, ⟨9, _⟩ => ⟨S62x8192x1, .f32⟩
  | .hbm, ⟨10, _⟩ => ⟨S62x8192x1, .f32⟩
  | .hbm, ⟨11, _⟩ => ⟨S62x8192x256, .f32⟩
  | .hbm, ⟨12, _⟩ => ⟨S62x8192x256, .f32⟩
  | .hbm, ⟨13, _⟩ => ⟨S62x8192x256, .f32⟩
  | .hbm, ⟨14, _⟩ => ⟨S_, .f32⟩
  | .hbm, ⟨15, _⟩ => ⟨S62x8192, .f32⟩
  | .hbm, ⟨16, _⟩ => ⟨S62x8192x1, .f32⟩
  | .hbm, ⟨17, _⟩ => ⟨S_, .f32⟩
  | .hbm, ⟨18, _⟩ => ⟨S62x8192x1, .f32⟩
  | .hbm, ⟨19, _⟩ => ⟨S62x8192x1, .f32⟩
  | .hbm, ⟨20, _⟩ => ⟨S62x8192x256, .f32⟩
  | .hbm, ⟨21, _⟩ => ⟨S62x8192x256, .f32⟩
  | .hbm, ⟨22, _⟩ => ⟨S_, .f32⟩
  | .hbm, ⟨23, _⟩ => ⟨S62x8192x1, .f32⟩
  | .hbm, ⟨24, _⟩ => ⟨S62x8192x1, .f32⟩
  | .hbm, ⟨25, _⟩ => ⟨S62x8192x1, .f32⟩
  | .hbm, ⟨26, _⟩ => ⟨S62x8192x256, .f32⟩
  | .hbm, ⟨27, _⟩ => ⟨S62x8192x256, .f32⟩
  | .hbm, ⟨28, _⟩ => ⟨S1x1x256, .f32⟩
  | .hbm, ⟨29, _⟩ => ⟨S62x8192x256, .f32⟩
  | .hbm, ⟨30, _⟩ => ⟨S62x8192x256, .f32⟩
  | .hbm, ⟨31, _⟩ => ⟨S1x1x256, .f32⟩
  | .hbm, ⟨32, _⟩ => ⟨S62x8192x256, .f32⟩
  | .hbm, ⟨33, _⟩ => ⟨S62x8192x256, .f32⟩
  | _, _ => ⟨S62x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S62x8192x256_S62x8192_d2 : S62x8192x256.ReducesTo [2] S62x8192
  h_S_ : 0 < S_.numel
  bcast_S62x8192_S62x8192x1_0_1 : S62x8192.BroadcastsInDim S62x8192x1 (![0, 1] : Fin 2 → Fin S62x8192x1.rank)
  bcast_S_S62x8192x1 : S_.BroadcastsInDim S62x8192x1 (![] : Fin 0 → Fin S62x8192x1.rank)
  bcast_S62x8192x1_S62x8192x256_0_1_2 : S62x8192x1.BroadcastsInDim S62x8192x256 (![0, 1, 2] : Fin 3 → Fin S62x8192x256.rank)
  bcast_S256_S1x1x256_2 : S256.BroadcastsInDim S1x1x256 (![2] : Fin 1 → Fin S1x1x256.rank)
  bcast_S1x1x256_S62x8192x256_0_1_2 : S1x1x256.BroadcastsInDim S62x8192x256 (![0, 1, 2] : Fin 3 → Fin S62x8192x256.rank)
  dot_S62x8192x128_S62x256x128_S62x8192x256_2_2_1_1_0_0_wf : DotDims.WF S62x8192x128 S62x256x128 S62x8192x256 [2] [2] [1] [1] [0] [0]

variable [Facts₀]

def dot_S62x8192x128_S62x256x128_S62x8192x256_2_2_1_1_0_0 : DotDims S62x8192x128 S62x256x128 S62x8192x256 where
  lhsContracting := [2]
  rhsContracting := [2]
  lhsNonContracting := [1]
  rhsNonContracting := [1]
  lhsBatch := [0]
  rhsBatch := [0]
  wf := dot_S62x8192x128_S62x256x128_S62x8192x256_2_2_1_1_0_0_wf

class Facts : Prop extends Facts₀ where

variable [Facts]
-- ==== Proof.RowNorm.lean ====
/-
  The result of the fused per-part linear layer and layer normalisation, stated once as a function of the four
  argument arrays over the extended reals, index by index.

  For a part `p` and a row `n` the linear layer gives the 256 numbers `h d = ∑ k, x[p, n, k] · W[p, d, k]` (`proj`).
  The normalisation of such a row is `norm`: with `μ = (∑ d, h d) / 256` (`mean`) and
  `σ² = (∑ d, (h d − μ)²) / 256` (`var`), entry `d` is `(h d − μ) · (σ² + ε)^(−1/2) · γ[d] + β[d]`, the products
  taken in that order. `256` and `ε` are the values of the two f32 words both programs carry; nothing here needs
  to know which reals they are. `result` is the whole [62, 8192, 256] array and `blockResult` the same formula on
  one [1, 4096, ·] block of `x` with one part's [1, 256, 128] weights.
-/
import Idealize.ShloMosaic.PureOps.Ideal
import Idealize.ShloMosaic.Lib.ValueIdx

noncomputable section

open scoped BigOperators

namespace Cert.RowNorm

open Idealize.ShloMosaic Idealize.ShloMosaic.ValueIdx

/-- The row length, as the extended real its f32 word denotes. -/
abbrev width : EReal := Ideal.ofBits .f32 0x43800000#32
/-- The variance offset, as the extended real its f32 word denotes. -/
abbrev eps : EReal := Ideal.ofBits .f32 0x3727C5AC#32

/-- The mean of a row of 256 entries. -/
def mean (h : Fin 256 → EReal) : EReal := Ideal.div (∑ d : Fin 256, h d) width

/-- The mean squared deviation of a row from its mean. -/
def var (h : Fin 256 → EReal) : EReal := Ideal.div (∑ d : Fin 256, (h d - mean h) * (h d - mean h)) width

/-- Entry `d` of the normalised row, scaled by `g` and shifted by `b`. -/
def norm (h : Fin 256 → EReal) (g b : EReal) (d : Fin 256) : EReal :=
  (h d - mean h) * Ideal.rsqrt (var h + eps) * g + b

/-- Row `n` of part `p` after the linear layer: entry `d` contracts `x[p, n, ·]` with `W[p, d, ·]`. -/
def proj (x : (⟨3, ![62, 8192, 128]⟩ : Shape).Idx → EReal) (w : (⟨3, ![62, 256, 128]⟩ : Shape).Idx → EReal)
    (p : Fin 62) (n : Fin 8192) (d : Fin 256) : EReal :=
  ∑ k : Fin 128, x (ix3 p n k) * w (ix3 p d k)

/-- The whole result array. -/
def result (x : (⟨3, ![62, 8192, 128]⟩ : Shape).Idx → EReal) (w : (⟨3, ![62, 256, 128]⟩ : Shape).Idx → EReal)
    (g b : (⟨1, ![256]⟩ : Shape).Idx → EReal) : (⟨3, ![62, 8192, 256]⟩ : Shape).Idx → EReal :=
  fun i => norm (proj x w (i 0) (i 1)) (g (ix1 (i 2))) (b (ix1 (i 2))) (i 2)

/-- Row `n` of one block after the linear layer, from the block of `x` and one part's weights. -/
def blockProj (x : (⟨3, ![1, 4096, 128]⟩ : Shape).Idx → EReal) (w : (⟨3, ![1, 256, 128]⟩ : Shape).Idx → EReal)
    (n : Fin 4096) (d : Fin 256) : EReal :=
  ∑ k : Fin 128, x (ix3 (0 : Fin 1) n k) * w (ix3 (0 : Fin 1) d k)

/-- One [1, 4096, 256] block of the result. -/
def blockResult (x : (⟨3, ![1, 4096, 128]⟩ : Shape).Idx → EReal) (w : (⟨3, ![1, 256, 128]⟩ : Shape).Idx → EReal)
    (g b : (⟨1, ![256]⟩ : Shape).Idx → EReal) : (⟨3, ![1, 4096, 256]⟩ : Shape).Idx → EReal :=
  fun j => norm (blockProj x w (j 1)) (g (ix1 (j 2))) (b (ix1 (j 2))) (j 2)

end Cert.RowNorm

end
-- ==== Proof.Keepdims.lean ====
/-
  Small facts about columns, read at an index. A vector of `a` entries viewed as a column `[a, 1]` has, at `(i, 0)`,
  the vector's entry `i`; a column repeated along a second axis of length `b` has, at `(i, j)`, the column's entry
  `(i, 0)`; and over the extended reals the sum of an `[a, b]` array along its second axis has, at `i`, the sum of
  row `i`.
-/
import Idealize.ShloMosaic.PureOps.Ideal.Laws
import Idealize.ShloMosaic.Lib.Pipeline.Value
import Idealize.ShloMosaic.Lib.ValueIdx

noncomputable section

open scoped BigOperators

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals the sum of an `[a, b]` array along its second axis is, at `i`, the sum of row `i`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

end Cert.Keepdims

end
-- ==== Proof.KernelBlock.lean ====
/-
  What the kernel body computes from one point's blocks is `Cert.RowNorm.blockResult` of them.

  The body's one stored value is cut here into the stages the source spells: the linear layer on the block (a
  matrix product of the [4096, 128] block of `x` with one part's [256, 128] weights, contracting the last axis of
  both, into a zero accumulator; the rounding of both operands to bf16 is the identity on extended reals), each row's
  mean as a column, the deviations from it, each row's reciprocal standard deviation as a column, and the scaled and
  shifted result with the block's leading unit axis put back. The cut is definitional; each stage is then read at an
  index whose coordinates are written out.
-/
import proofs.«165475_j82995948028522_2_alg».proof.Proof.Gen.KernelIdeal.Skeleton
import proofs.«165475_j82995948028522_2_alg».proof.Proof.RowNorm
import proofs.«165475_j82995948028522_2_alg».proof.Proof.Keepdims
import Idealize.ShloMosaic.Lib.ValueLayout
import Idealize.ShloMosaic.PureOps.Ideal.Laws

noncomputable section

open scoped BigOperators

namespace Cert.KernelIdeal.Block

open Cert.KernelIdeal Cert.KernelIdeal.Gen Cert.RowNorm Cert.Keepdims Idealize.ShloMosaic Idealize.ShloMosaic.ValueIdx

/-! ## The stages -/

/-- The linear layer on one block. -/
def linear (v0 : Vec Ideal S1x4096x128 .f32) (v2 : Vec Ideal S1x256x128 .f32) : FVec Ideal S4096x256 .f32 :=
  matmul dot_S4096x128_S256x128_S4096x256_1_1_0_0_n_n none
    (truncf .bf16 (shapeCast S4096x128 v0 shapeCasts_S1x4096x128_S4096x128) bitsLt_bf16_f32)
    (truncf .bf16 (shapeCast S256x128 v2 shapeCasts_S1x256x128_S256x128) bitsLt_bf16_f32)
    (constant (F := Ideal) S4096x256 .f32 0x00000000#32)

/-- Each row's mean, as a column. -/
def rowMean (y : FVec Ideal S4096x256 .f32) : FVec Ideal S4096x1 .f32 :=
  divf (shapeCast S4096x1 (multiReduction .add [1] S4096 y 0x00000000#32 reduces_S4096x256_S4096 (.inl rfl) rfl) shapeCasts_S4096_S4096x1)
    (broadcast S4096x1 (Scalar.ofBits (F := Ideal) .f32 0x43800000#32))

/-- The deviations from the row means. -/
def centred (y : FVec Ideal S4096x256 .f32) : FVec Ideal S4096x256 .f32 :=
  subf y (broadcastTo S4096x256 (rowMean y) broadcasts_S4096x1_S4096x256)

/-- Each row's reciprocal standard deviation, as a column. -/
def rowInv (y : FVec Ideal S4096x256 .f32) : FVec Ideal S4096x1 .f32 :=
  rsqrt (addf
    (divf (shapeCast S4096x1 (multiReduction .add [1] S4096 (mulf (centred y) (centred y)) 0x00000000#32 reduces_S4096x256_S4096 (.inl rfl) rfl) shapeCasts_S4096_S4096x1)
      (broadcast S4096x1 (Scalar.ofBits (F := Ideal) .f32 0x43800000#32)))
    (broadcast S4096x1 (Scalar.ofBits (F := Ideal) .f32 0x3727C5AC#32)))

/-- The normalised rows, scaled and shifted, as a [1, 4096, 256] block. -/
def normalised (y : FVec Ideal S4096x256 .f32) (v23 v24 : Vec Ideal S256 .f32) : FVec Ideal S1x4096x256 .f32 :=
  shapeCast S1x4096x256
    (addf
      (mulf (mulf (centred y) (broadcastTo S4096x256 (rowInv y) broadcasts_S4096x1_S4096x256))
        (broadcastTo S4096x256 (shapeCast S1x256 v23 shapeCasts_S256_S1x256) broadcasts_S1x256_S4096x256))
      (broadcastTo S4096x256 (shapeCast S1x256 v24 shapeCasts_S256_S1x256) broadcasts_S1x256_S4096x256))
    shapeCasts_S4096x256_S1x4096x256

/-- The body's stored value is these stages composed. -/
theorem payload_eq (v0 : Vec Ideal S1x4096x128 .f32) (v2 : Vec Ideal S1x256x128 .f32) (v23 v24 : Vec Ideal S256 .f32) :
    k0_pay1 (F := Ideal) v0 v2 v23 v24 = normalised (linear v0 v2) v23 v24 := rfl

/-! ## Each stage at an index -/

/-- In the matrix product's dimension numbers, entry `(n, d)` reads the left operand in row `n` … -/
theorem lhs_row (i : S4096x256.Idx) (q : dot_S4096x128_S256x128_S4096x256_1_1_0_0_n_n.contr.Idx) :
    (dot_S4096x128_S256x128_S4096x256_1_1_0_0_n_n.lhsIdx i q 0).val = (i 0).val := by
  unfold DotDims.lhsIdx
  rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
  rfl
/-- … at the contracted position, … -/
theorem lhs_col (i : S4096x256.Idx) (q : dot_S4096x128_S256x128_S4096x256_1_1_0_0_n_n.contr.Idx) :
    (dot_S4096x128_S256x128_S4096x256_1_1_0_0_n_n.lhsIdx i q 1).val = (q ⟨0, by decide⟩).val :=
  dot_S4096x128_S256x128_S4096x256_1_1_0_0_n_n.lhsIdx_val_of_single rfl i q
/-- … and the right operand in row `d` … -/
theorem rhs_row (i : S4096x256.Idx) (q : dot_S4096x128_S256x128_S4096x256_1_1_0_0_n_n.contr.Idx) :
    (dot_S4096x128_S256x128_S4096x256_1_1_0_0_n_n.rhsIdx i q 0).val = (i 1).val := by
  unfold DotDims.rhsIdx
  rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
  rfl
/-- … at the contracted position. -/
theorem rhs_col (i : S4096x256.Idx) (q : dot_S4096x128_S256x128_S4096x256_1_1_0_0_n_n.contr.Idx) :
    (dot_S4096x128_S256x128_S4096x256_1_1_0_0_n_n.rhsIdx i q 1).val = (q ⟨0, by decide⟩).val :=
  dot_S4096x128_S256x128_S4096x256_1_1_0_0_n_n.rhsIdx_val_of_single rfl i q

/-- The matrix product at `(n, d)` contracts row `n` of the block of `x` with row `d` of the weights. -/
theorem linear_apply (v0 : Vec Ideal S1x4096x128 .f32) (v2 : Vec Ideal S1x256x128 .f32) (n : Fin 4096) (d : Fin 256) :
    linear v0 v2 (ix2 n d) = blockProj v0 v2 n d := by
  unfold linear blockProj
  refine (Ideal.matmul_constant_zero_apply dot_S4096x128_S256x128_S4096x256_1_1_0_0_n_n none _ _ (ix2 n d)).trans ?_
  rw [← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 n d) ((contrEquiv1 dot_S4096x128_S256x128_S4096x256_1_1_0_0_n_n 128 rfl rfl).symm k) = ix2 n k := funext fun a => Fin.ext (by
    match a with
    | ⟨0, _⟩ => exact lhs_row _ _
    | ⟨1, _⟩ => exact (lhs_col _ _).trans hk)
  have er : dot_S4096x128_S256x128_S4096x256_1_1_0_0_n_n.rhsIdx (ix2 n d) ((contrEquiv1 dot_S4096x128_S256x128_S4096x256_1_1_0_0_n_n 128 rfl rfl).symm k) = ix2 d k := funext fun a => Fin.ext (by
    match a with
    | ⟨0, _⟩ => exact rhs_row _ _
    | ⟨1, _⟩ => exact (rhs_col _ _).trans hk)
  rw [el, er, truncf_apply, truncf_apply, shapeCast_1ab_ab_apply, shapeCast_1ab_ab_apply]

/-- The mean column at `(n, 0)` is the mean of row `n`. -/
theorem rowMean_apply (y : FVec Ideal S4096x256 .f32) (n : Fin 4096) (u : Fin 1) :
    rowMean y (ix2 n u) = mean (fun d => y (ix2 n d)) := by
  unfold rowMean mean
  rw [divf_apply, shapeCast_a_a1_apply]
  exact congrArg (Ideal.div · width) (rowSum_apply y 0x00000000#32 reduces_S4096x256_S4096 (.inl rfl) rfl n)

/-- The deviation at `(n, d)`. -/
theorem centred_apply (y : FVec Ideal S4096x256 .f32) (n : Fin 4096) (d : Fin 256) :
    centred y (ix2 n d) = y (ix2 n d) - mean (fun d => y (ix2 n d)) := by
  unfold centred
  rw [subf_apply, broadcastTo_a1_ab_apply, rowMean_apply]

/-- The reciprocal standard deviation column at `(n, 0)`. -/
theorem rowInv_apply (y : FVec Ideal S4096x256 .f32) (n : Fin 4096) (u : Fin 1) :
    rowInv y (ix2 n u) = Ideal.rsqrt (var (fun d => y (ix2 n d)) + eps) := by
  unfold rowInv var
  show Ideal.rsqrt (_ + _) = _
  refine congrArg Ideal.rsqrt (congrArg₂ (· + ·) ?_ rfl)
  rw [divf_apply, shapeCast_a_a1_apply]
  refine congrArg (Ideal.div · width) ((rowSum_apply (mulf (centred y) (centred y)) 0x00000000#32 reduces_S4096x256_S4096 (.inl rfl) rfl n).trans ?_)
  refine Finset.sum_congr rfl fun k _ => ?_
  rw [mulf_apply, centred_apply]

/-- The block at `(0, n, d)` is the normalised row `n` at `d`, scaled by `γ[d]` and shifted by `β[d]`. -/
theorem normalised_apply (y : FVec Ideal S4096x256 .f32) (v23 v24 : Vec Ideal S256 .f32) (u : Fin 1) (n : Fin 4096) (d : Fin 256) :
    normalised y v23 v24 (ix3 u n d) = RowNorm.norm (fun d => y (ix2 n d)) (v23 (ix1 d)) (v24 (ix1 d)) d := by
  unfold normalised RowNorm.norm
  rw [shapeCast_ab_1ab_apply, addf_apply, mulf_apply, mulf_apply, centred_apply, broadcastTo_a1_ab_apply, rowInv_apply,
    broadcastTo_1b_ab_apply, broadcastTo_1b_ab_apply, shapeCast_a_1a_apply, shapeCast_a_1a_apply]

/-- THE BODY'S STORED VALUE is `blockResult` of its four loaded blocks. -/
theorem payload_apply (v0 : Vec Ideal S1x4096x128 .f32) (v2 : Vec Ideal S1x256x128 .f32) (v23 v24 : Vec Ideal S256 .f32) :
    k0_pay1 (F := Ideal) v0 v2 v23 v24 = blockResult v0 v2 v23 v24 := by
  rw [payload_eq]
  funext j
  obtain ⟨u, n, d, rfl⟩ : ∃ (u : Fin 1) (n : Fin 4096) (d : Fin 256), j = ix3 u n d := ⟨j 0, j 1, j 2, eq_ix3 j⟩
  rw [normalised_apply]
  unfold blockResult
  exact congrArg (fun h => RowNorm.norm h (v23 (ix1 d)) (v24 (ix1 d)) d) (funext fun d' => linear_apply v0 v2 n d')

end Cert.KernelIdeal.Block

end
-- ==== Proof.KernelArray.lean ====
/-
  The array the kernel leaves behind is `Cert.RowNorm.result` of the four argument arrays.

  The grid has 62 × 2 points. Point `(p, h)` stages rows `4096·h … 4096·h + 4095` of part `p` of `x`, all of part
  `p`'s weights, the whole scale and shift vectors, and writes back the same rows of part `p` of the output. So
  what the body computes from its blocks (`Cert.RowNorm.blockResult`) is, entry by entry, the whole-array function
  read through the output's block; and since every `(p, n, d)` lies in the block of point `(p, n / 4096)`, the
  final array is that function everywhere.
-/
import proofs.«165475_j82995948028522_2_alg».proof.Proof.Gen.KernelIdeal.Value
import proofs.«165475_j82995948028522_2_alg».proof.Proof.KernelBlock

noncomputable section

open scoped BigOperators

/-! ## One block of the result, from blocks that are pieces of the arrays -/

namespace Cert.RowNorm

open Idealize.ShloMosaic Idealize.ShloMosaic.ValueIdx

/-- If the block of `x` holds rows of part `p` with block row `n` being row `r`, the weight block is part `p`'s, and the
    scale and shift blocks agree with the vectors at `d`, then the block's entry `(0, n, d)` is the array's `(p, r, d)`. -/
theorem blockResult_eq_result (X : (⟨3, ![62, 8192, 128]⟩ : Shape).Idx → EReal) (W : (⟨3, ![62, 256, 128]⟩ : Shape).Idx → EReal)
    (g b : (⟨1, ![256]⟩ : Shape).Idx → EReal)
    (x : (⟨3, ![1, 4096, 128]⟩ : Shape).Idx → EReal) (w : (⟨3, ![1, 256, 128]⟩ : Shape).Idx → EReal)
    (g' b' : (⟨1, ![256]⟩ : Shape).Idx → EReal)
    (p : Fin 62) (r : Fin 8192) (u : Fin 1) (n : Fin 4096) (d : Fin 256)
    (hx : ∀ k : Fin 128, x (ix3 (0 : Fin 1) n k) = X (ix3 p r k))
    (hw : ∀ (d' : Fin 256) (k : Fin 128), w (ix3 (0 : Fin 1) d' k) = W (ix3 p d' k))
    (hg : g' (ix1 d) = g (ix1 d)) (hb : b' (ix1 d) = b (ix1 d)) :
    blockResult x w g' b' (ix3 u n d) = result X W g b (ix3 p r d) := by
  have hrow : blockProj x w n = proj X W p r := funext fun d' => by
    unfold blockProj proj
    exact Finset.sum_congr rfl fun k _ => by rw [hx, hw]
  show RowNorm.norm (blockProj x w n) (g' (ix1 d)) (b' (ix1 d)) d = RowNorm.norm (proj X W p r) (g (ix1 d)) (b (ix1 d)) d
  rw [hrow, hg, hb]

end Cert.RowNorm

namespace Cert.KernelIdeal.Whole

open Cert.KernelIdeal Cert.KernelIdeal.Gen Cert.RowNorm Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as a function of the argument arrays as the region finds them. -/
abbrev whole (c : Dev nD) : S62x8192x256.Idx → Elt Ideal .f32 :=
  result (V m c main_arg0) (V m c main_arg1) (V m c main_arg2) (V m c main_arg3)

theorem hz3 : (![0, 0, 0] : Fin 3 → Nat) = fun _ => 0 := funext fun a => by fin_cases a <;> rfl
theorem hz1 : (![0] : Fin 1 → Nat) = fun _ => 0 := funext fun a => by fin_cases a <;> rfl

/-- The index maps, over the 124 points: the block of `x` moves with the output's block on the part and row-block
    axes; the weight block follows the part; the scale and shift blocks never move; the output's block indices
    stay in their ranges. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 1) = 0 ∧ win0_3.index t (0 : Fin 1) = 0
    ∧ win0_4.index t (0 : Fin 3) < 62 ∧ win0_4.index t (1 : Fin 3) < 2 ∧ win0_4.index t (2 : Fin 3) = 0 :=
  (by decide +kernel : ∀ t : Fin grid0.N, _)

/-- Every (part, row block) pair is some point's. -/
theorem idx_onto : ∀ (q0 : Fin 62) (q1 : Fin 2), ∃ t : Fin cfg0.N, win0_4.index t = ![q0.val, q1.val, 0] :=
  (by decide +kernel : ∀ (q0 : Fin 62) (q1 : Fin 2), ∃ t : Fin grid0.N, win0_4.index t = ![q0.val, q1.val, 0])

/-- The part point `t` works on, and the array row its block row `n` is. -/
abbrev partOf (t : Fin cfg0.N) : Fin 62 := ⟨win0_4.index t (0 : Fin 3), (idx_facts t).2.2.2.2.2.2.2.2.1⟩
abbrev rowOf (t : Fin cfg0.N) (n : Fin 4096) : Fin 8192 :=
  ⟨win0_4.index t (1 : Fin 3) * 4096 + n.val, by have := (idx_facts t).2.2.2.2.2.2.2.2.2.1; have := n.isLt; omega⟩

/-- The block of `x` at point `t` holds rows of its part. -/
theorem xblock_apply (c : Dev nD) (t : Fin cfg0.N) (n : Fin 4096) (k : Fin 128) :
    iblk m c 0 t (ix3 (0 : Fin 1) n k) = V m c main_arg0 (ix3 (partOf t) (rowOf t n) k) := by
  obtain ⟨e0, e1, e2, -⟩ := idx_facts t
  show V m c main_arg0 (((cfg0.win 0).blk t).view.emb (ix3 (0 : Fin 1) n k)) = V m c main_arg0 (ix3 (partOf t) (rowOf t n) k)
  refine congrArg (V m c main_arg0) (funext fun a => Fin.ext ?_)
  match a with
  | ⟨0, _⟩ => show win0_0.index t (0 : Fin 3) * 1 + 1 * 0 = win0_4.index t (0 : Fin 3); omega
  | ⟨1, _⟩ => show win0_0.index t (1 : Fin 3) * 4096 + 1 * n.val = win0_4.index t (1 : Fin 3) * 4096 + n.val; omega
  | ⟨2, _⟩ => show win0_0.index t (2 : Fin 3) * 128 + 1 * k.val = k.val; omega

/-- The weight block at point `t` is its part's weights. -/
theorem wblock_apply (c : Dev nD) (t : Fin cfg0.N) (d : Fin 256) (k : Fin 128) :
    iblk m c 1 t (ix3 (0 : Fin 1) d k) = V m c main_arg1 (ix3 (partOf t) d k) := by
  obtain ⟨-, -, -, e0, e1, e2, -⟩ := idx_facts t
  show V m c main_arg1 (((cfg0.win 1).blk t).view.emb (ix3 (0 : Fin 1) d k)) = V m c main_arg1 (ix3 (partOf t) d k)
  refine congrArg (V m c main_arg1) (funext fun a => Fin.ext ?_)
  match a with
  | ⟨0, _⟩ => show win0_1.index t (0 : Fin 3) * 1 + 1 * 0 = win0_4.index t (0 : Fin 3); omega
  | ⟨1, _⟩ => show win0_1.index t (1 : Fin 3) * 256 + 1 * d.val = d.val; omega
  | ⟨2, _⟩ => show win0_1.index t (2 : Fin 3) * 128 + 1 * k.val = k.val; omega

/-- The scale block is the scale vector … -/
theorem gblock_apply (c : Dev nD) (t : Fin cfg0.N) (d : Fin 256) :
    iblk m c 2 t (ix1 d) = V m c main_arg2 (ix1 d) := by
  obtain ⟨-, -, -, -, -, -, e0, -⟩ := idx_facts t
  show V m c main_arg2 (((cfg0.win 2).blk t).view.emb (ix1 d)) = V m c main_arg2 (ix1 d)
  refine congrArg (V m c main_arg2) (funext fun a => Fin.ext ?_)
  match a with
  | ⟨0, _⟩ => show win0_2.index t (0 : Fin 1) * 256 + 1 * d.val = d.val; omega

/-- … and the shift block the shift vector. -/
theorem bblock_apply (c : Dev nD) (t : Fin cfg0.N) (d : Fin 256) :
    iblk m c 3 t (ix1 d) = V m c main_arg3 (ix1 d) := by
  obtain ⟨-, -, -, -, -, -, -, e0, -⟩ := idx_facts t
  show V m c main_arg3 (((cfg0.win 3).blk t).view.emb (ix1 d)) = V m c main_arg3 (ix1 d)
  refine congrArg (V m c main_arg3) (funext fun a => Fin.ext ?_)
  match a with
  | ⟨0, _⟩ => show win0_3.index t (0 : Fin 1) * 256 + 1 * d.val = d.val; omega

/-- Entry `(0, n, d)` of the output's block at point `t` sits at `(part, row, d)` of the array. -/
theorem out_emb (t : Fin cfg0.N) (u : Fin 1) (n : Fin 4096) (d : Fin 256) :
    ((cfg0.win 4).blk t).view.emb (ix3 u n d) = ix3 (partOf t) (rowOf t n) d := by
  obtain ⟨-, -, -, -, -, -, -, -, -, -, e2⟩ := idx_facts t
  have hu : u.val = 0 := by omega
  refine funext fun a => Fin.ext ?_
  match a with
  | ⟨0, _⟩ => show win0_4.index t (0 : Fin 3) * 1 + 1 * u.val = win0_4.index t (0 : Fin 3); omega
  | ⟨1, _⟩ => show win0_4.index t (1 : Fin 3) * 4096 + 1 * n.val = win0_4.index t (1 : Fin 3) * 4096 + n.val; omega
  | ⟨2, _⟩ => show win0_4.index t (2 : Fin 3) * 256 + 1 * d.val = d.val; omega

/-- What the body computes from point `t`'s blocks is the whole-array function read through the output's block. -/
theorem block_read (c : Dev nD) (t : Fin cfg0.N) (j : S1x4096x256.Idx) :
    blockResult (iblk m c 0 t) (iblk m c 1 t) (iblk m c 2 t) (iblk m c 3 t) j = whole m c (((cfg0.win 4).blk t).view.emb j) := by
  obtain ⟨u, n, d, rfl⟩ : ∃ (u : Fin 1) (n : Fin 4096) (d : Fin 256), j = ix3 u n d := ⟨j 0, j 1, j 2, eq_ix3 j⟩
  rw [out_emb]
  exact blockResult_eq_result _ _ _ _ _ _ _ _ (partOf t) (rowOf t n) u n d (fun k => xblock_apply m c t n k)
    (fun d' k => wblock_apply m c t d' k) (gblock_apply m c t d) (bblock_apply m c t d)

/-- WHAT POINT `t` WRITES BACK is block `t` of the whole-array function. -/
theorem flushed_eq (c : Dev nD) (t : Fin cfg0.N) :
    (dats m 0 c).flushed 4 t = ((cfg0.win 4).blk t).view.read (Elt Ideal) (whole m c) := by
  rw [Value.flushed4]
  unfold out0_4
  rw [View.canon_unit_zero hz3]
  simp only [View.ld_unit_zero (S := S1x4096x128) hz3, View.ld_unit_zero (S := S1x256x128) hz3, View.ld_unit_zero (S := S256) hz1]
  rw [Block.payload_apply]
  funext j
  exact block_read m c t j

/-- An index of the array is in point `t`'s block iff each coordinate is in the block's range on its axis. -/
theorem mem_blk (t : Fin cfg0.N) (i : S62x8192x256.Idx) :
    i ∈ ((cfg0.win 4).blk t).view.set ↔ ∀ a : Fin 3, win0_4.index t a * S1x4096x256.size a ≤ (i a).val ∧ (i a).val < win0_4.index t a * S1x4096x256.size a + S1x4096x256.size a := by
  show i ∈ ((View.whole main_v0).slice (win0_4.rect t)).set ↔ _
  rw [View.set_slice_whole, Rect.mem_set_unit]
  exact Iff.rfl

/-- Every index of the array is in the block of the point of its part and row block. -/
theorem cover (i : S62x8192x256.Idx) :
    ∃ t : Fin cfg0.N, (cfg0.win 4).flush t = true ∧ i ∈ ((cfg0.win 4).blk t).view.set := by
  have hi0 : (i 0).val < 62 := (i 0).isLt
  have hi1 : (i 1).val < 8192 := (i 1).isLt
  have hi2 : (i 2).val < 256 := (i 2).isLt
  obtain ⟨t, ht⟩ := idx_onto ⟨(i 0).val, hi0⟩ ⟨(i 1).val / 4096, by omega⟩
  have q0 : win0_4.index t (0 : Fin 3) = (i 0).val := congrFun ht 0
  have q1 : win0_4.index t (1 : Fin 3) = (i 1).val / 4096 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 256 ≤ (i 2).val ∧ (i 2).val < win0_4.index t (2 : Fin 3) * 256 + 256; omega

/-- THE ARRAY after the run is the whole-array function of the argument arrays. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) :=
  (dats m 0 c).arrAt_eq_of_cover 4 (whole m c) (fun t _ => flushed_eq m c t) (cover)

/-- The kernel's run: the result array ends at `result` of the arguments, which end unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefResult.lean ====
/-
  The reference program's result, stage by stage, is the function `Cert.RowNorm.result` of its four arguments.

  The reference contracts `x[p, n, ·]` with `W[p, d, ·]` for every `(p, n, d)`, sums each row of 256 and divides
  by 256 to get the mean, subtracts it, sums the squares of the differences and divides by 256 to get the variance,
  adds `ε`, takes the reciprocal square root, and scales and shifts by `γ[d]` and `β[d]`. Each lemma below reads one
  of these stages at an index whose coordinates are written out; a sum that starts from the f32 zero is the sum.
-/
import proofs.«165475_j82995948028522_2_alg».proof.Proof.Gen.ReferenceIdeal.Read
import proofs.«165475_j82995948028522_2_alg».proof.Proof.RowNorm

noncomputable section

open scoped BigOperators

namespace Cert.ReferenceIdeal.RefResult

open Cert.ReferenceIdeal Cert.ReferenceIdeal.Read Cert.RowNorm Idealize.ShloMosaic Idealize.ShloMosaic.ValueIdx

/-! ## Where each stage reads its operands, by coordinates -/

section Indices
variable (p : Fin 62) (n : Fin 8192) (d : Fin 256) (u : Fin 1)

/-- Entry `(p, n, d)` of the contraction reads `x` at `(p, n, k)` … -/
theorem lidx_eq (k : Fin 128) : lidx_main_v0 (ix3 p n d) k = ix3 p n k :=
  funext fun a => Fin.ext (by match a with | ⟨0, _⟩ => rfl | ⟨1, _⟩ => rfl | ⟨2, _⟩ => rfl)
/-- … and `W` at `(p, d, k)`. -/
theorem ridx_eq (k : Fin 128) : ridx_main_v0 (ix3 p n d) k = ix3 p d k :=
  funext fun a => Fin.ext (by match a with | ⟨0, _⟩ => rfl | ⟨1, _⟩ => rfl | ⟨2, _⟩ => rfl)
/-- The first row sum, kept as a column, reads row `(p, n)`. -/
theorem sum1_idx_eq (k : Fin 256) : idx_main_v1 (idx_main_v2 (ix3 p n u)) k = ix3 p n k :=
  funext fun a => Fin.ext (by match a with | ⟨0, _⟩ => rfl | ⟨1, _⟩ => rfl | ⟨2, _⟩ => rfl)
/-- So does the second. -/
theorem sum2_idx_eq (k : Fin 256) : idx_main_v8 (idx_main_v9 (ix3 p n u)) k = ix3 p n k :=
  funext fun a => Fin.ext (by match a with | ⟨0, _⟩ => rfl | ⟨1, _⟩ => rfl | ⟨2, _⟩ => rfl)
/-- A column repeated along the last axis reads its one entry of the row. -/
theorem col5_idx_eq : idx_main_v5 (ix3 p n d) = ix3 p n (0 : Fin 1) :=
  funext fun a => Fin.ext (by match a with | ⟨0, _⟩ => rfl | ⟨1, _⟩ => rfl | ⟨2, _⟩ => rfl)
theorem col12_idx_eq : idx_main_v12 (ix3 p n d) = ix3 p n (0 : Fin 1) :=
  funext fun a => Fin.ext (by match a with | ⟨0, _⟩ => rfl | ⟨1, _⟩ => rfl | ⟨2, _⟩ => rfl)
theorem col17_idx_eq : idx_main_v17 (ix3 p n d) = ix3 p n (0 : Fin 1) :=
  funext fun a => Fin.ext (by match a with | ⟨0, _⟩ => rfl | ⟨1, _⟩ => rfl | ⟨2, _⟩ => rfl)
/-- The scale and the shift, repeated over parts and rows, read their entry `d`. -/
theorem scale_idx_eq : idx_main_v19 (idx_main_v20 (ix3 p n d)) = ix1 d :=
  funext fun a => Fin.ext (by match a with | ⟨0, _⟩ => rfl)
theorem shift_idx_eq : idx_main_v22 (idx_main_v23 (ix3 p n d)) = ix1 d :=
  funext fun a => Fin.ext (by match a with | ⟨0, _⟩ => rfl)

end Indices

/-! ## The stages at an index -/

variable (x0 : (⟨S62x8192x128, .f32⟩ : BufTy).Contents (Elt Ideal)) (x1 : (⟨S62x256x128, .f32⟩ : BufTy).Contents (Elt Ideal))
variable (x2 x3 : (⟨S256, .f32⟩ : BufTy).Contents (Elt Ideal))

/-- The contraction at `(p, n, d)` is entry `d` of row `n` of part `p` after the linear layer. -/
theorem linear_apply (p : Fin 62) (n : Fin 8192) (d : Fin 256) :
    val_main_v0 (F := Ideal) x0 x1 (ix3 p n d) = proj x0 x1 p n d := by
  rw [val_main_v0_apply]
  exact Finset.sum_congr rfl fun k _ => by rw [lidx_eq, ridx_eq]

/-- The row mean at `(p, n, 0)`. -/
theorem mean_apply (p : Fin 62) (n : Fin 8192) (u : Fin 1) :
    val_main_v4 (F := Ideal) x0 x1 (ix3 p n u) = mean (proj x0 x1 p n) := by
  rw [val_main_v4_apply, val_main_v2_apply, val_main_v1_apply, val_main_v3_apply, val_main_cst_apply, val_main_cst_0_apply]
  show Ideal.div (Ideal.ofBits .f32 0x00000000#32 + _) _ = _
  rw [Ideal.ofBits_zero_f32, zero_add]
  unfold mean
  exact congrArg (Ideal.div · width) (Finset.sum_congr rfl fun k _ => by rw [sum1_idx_eq, linear_apply])

/-- The deviation from the row mean at `(p, n, d)`, as the reference computes it for the variance … -/
theorem centred_apply (p : Fin 62) (n : Fin 8192) (d : Fin 256) :
    val_main_v6 (F := Ideal) x0 x1 (ix3 p n d) = proj x0 x1 p n d - mean (proj x0 x1 p n) := by
  rw [val_main_v6_apply, val_main_v5_apply, col5_idx_eq, linear_apply, mean_apply]
  rfl

/-- … and as it computes it again for the output. -/
theorem centred_apply' (p : Fin 62) (n : Fin 8192) (d : Fin 256) :
    val_main_v13 (F := Ideal) x0 x1 (ix3 p n d) = proj x0 x1 p n d - mean (proj x0 x1 p n) := by
  rw [val_main_v13_apply, val_main_v12_apply, col12_idx_eq, linear_apply, mean_apply]
  rfl

/-- The row variance at `(p, n, 0)`. -/
theorem var_apply (p : Fin 62) (n : Fin 8192) (u : Fin 1) :
    val_main_v11 (F := Ideal) x0 x1 (ix3 p n u) = var (proj x0 x1 p n) := by
  rw [val_main_v11_apply, val_main_v9_apply, val_main_v8_apply, val_main_v10_apply, val_main_cst_1_apply, val_main_cst_2_apply]
  show Ideal.div (Ideal.ofBits .f32 0x00000000#32 + _) _ = _
  rw [Ideal.ofBits_zero_f32, zero_add]
  unfold var
  refine congrArg (Ideal.div · width) (Finset.sum_congr rfl fun k _ => ?_)
  rw [sum2_idx_eq, val_main_v7_apply, centred_apply]
  rfl

/-- The reciprocal standard deviation at `(p, n, 0)`. -/
theorem inv_apply (p : Fin 62) (n : Fin 8192) (u : Fin 1) :
    val_main_v16 (F := Ideal) x0 x1 (ix3 p n u) = Ideal.rsqrt (var (proj x0 x1 p n) + eps) := by
  rw [val_main_v16_apply, val_main_v15_apply, val_main_v14_apply, val_main_cst_3_apply, var_apply]
  rfl

/-- THE REFERENCE'S RESULT is `result` of its arguments. -/
theorem result_eq : val_main_v24 (F := Ideal) x0 x1 x2 x3 = result x0 x1 x2 x3 := by
  funext i
  obtain ⟨p, n, d, rfl⟩ : ∃ (p : Fin 62) (n : Fin 8192) (d : Fin 256), i = ix3 p n d := ⟨i 0, i 1, i 2, eq_ix3 i⟩
  rw [val_main_v24_apply, val_main_v21_apply, val_main_v18_apply, val_main_v17_apply, val_main_v20_apply, val_main_v19_apply,
    val_main_v23_apply, val_main_v22_apply, col17_idx_eq, scale_idx_eq, shift_idx_eq, centred_apply', inv_apply]
  rfl

end Cert.ReferenceIdeal.RefResult

end
-- ==== Proof.lean ====
/-
  A per-part linear layer followed by layer normalisation, computed by a tiled kernel, against the same computation
  written with whole-array operations.

  For inputs `x : [62, 8192, 128]`, `W : [62, 256, 128]`, `γ, β : [256]` both programs compute, for every part `p`
  and row `n`, the 256 numbers `h d = ∑ k, x[p, n, k] · W[p, d, k]`, their mean `μ` and mean squared deviation
  `σ²`, and return `(h d − μ) · (σ² + ε)^(−1/2) · γ[d] + β[d]`. The kernel does this on blocks of 4096 rows of one
  part at a time, rounding the matrix product's operands to bf16 first (the identity on extended reals) and
  accumulating into zero; the reference contracts the whole arrays at once. Both divide by the same f32 word for
  256, add the same f32 word for ε and multiply in the same order, so over the extended reals the two results are one
  function of the arguments (`Cert.RowNorm.result`) with no algebraic law needed beyond dropping a leading zero
  from each sum; in particular the finiteness of the inputs is never used.

  The kernel's side: the body's stored value is that function on one block (Proof/KernelBlock.lean), the blocks tile
  the output array (Proof/KernelArray.lean). The reference's side: its composed term is that function, stage by
  stage (Proof/RefResult.lean). The kernel's idealisation rewrote nothing, so the claim that it is the sanctioned
  one is trivial; the three frames are the programs' runs with the results dropped.
-/
import proofs.«165475_j82995948028522_2_alg».proof.Defs
import proofs.«165475_j82995948028522_2_alg».proof.Proof.Gen.Kernel
import proofs.«165475_j82995948028522_2_alg».proof.Proof.Gen.Kernel.Skeleton
import proofs.«165475_j82995948028522_2_alg».proof.Proof.Gen.Kernel.Launch
import proofs.«165475_j82995948028522_2_alg».proof.Proof.Gen.Kernel.Points
import proofs.«165475_j82995948028522_2_alg».proof.Proof.Gen.Kernel.Frame
import proofs.«165475_j82995948028522_2_alg».proof.Proof.Gen.KernelIdeal
import proofs.«165475_j82995948028522_2_alg».proof.Proof.Gen.KernelIdeal.Skeleton
import proofs.«165475_j82995948028522_2_alg».proof.Proof.Gen.KernelIdeal.Launch
import proofs.«165475_j82995948028522_2_alg».proof.Proof.Gen.KernelIdeal.Points
import proofs.«165475_j82995948028522_2_alg».proof.Proof.Gen.KernelIdeal.Frame
import proofs.«165475_j82995948028522_2_alg».proof.Proof.Gen.ReferenceIdeal
import proofs.«165475_j82995948028522_2_alg».proof.Proof.Gen.Pre_finite_inputs
import proofs.«165475_j82995948028522_2_alg».proof.Proof.Gen.KernelIdeal.Value
import proofs.«165475_j82995948028522_2_alg».proof.Proof.Gen.ReferenceIdeal.Run
import proofs.«165475_j82995948028522_2_alg».proof.Proof.Gen.ReferenceIdeal.Read
import proofs.«165475_j82995948028522_2_alg».proof.Proof.KernelArray
import proofs.«165475_j82995948028522_2_alg».proof.Proof.RefResult
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at `Cert.RowNorm.result` of its arguments (the blocks tile
    the array) and the reference's at its composed term of arguments that agree, which is the same function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v24_eq _ _ _ _).trans (Cert.ReferenceIdeal.RefResult.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
